-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x1024 : Shape := ⟨2, ![32000, 1024]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel

variable [Facts]

def fn {F : FTy → Type} [FloatOps F] (main_arg0 : IVec S4x2048 32) (main_arg1 : FVec F S32000x1024 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  main_v3
-- ==== Kernel.lean ====
abbrev S4x2048 : Shape := ⟨2, ![4, 2048]⟩
abbrev S32000x1024 : Shape := ⟨2, ![32000, 1024]⟩
abbrev S8192x1 : Shape := ⟨2, ![8192, 1]⟩
abbrev S8192x1024 : Shape := ⟨2, ![8192, 1024]⟩
abbrev S1024x1 : Shape := ⟨2, ![1024, 1]⟩
abbrev S1280x1024 : Shape := ⟨2, ![1280, 1024]⟩
abbrev S1024x1024 : Shape := ⟨2, ![1024, 1024]⟩
abbrev S1024x1280 : Shape := ⟨2, ![1024, 1280]⟩
abbrev S4x2048x1024 : Shape := ⟨3, ![4, 2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x2048, .i32⟩
  | .hbm, ⟨1, _⟩ => ⟨S32000x1024, .f32⟩
  | .hbm, ⟨2, _⟩ => ⟨S8192x1, .i32⟩
  | .hbm, ⟨3, _⟩ => ⟨S8192x1024, .f32⟩
  | .hbm, ⟨4, _⟩ => ⟨S4x2048x1024, .f32⟩
  | .local _ .vmem, ⟨0, _⟩ => ⟨S1024x1, .i32⟩
  | .local _ .vmem, ⟨1, _⟩ => ⟨S1024x1, .i32⟩
  | .local _ .vmem, ⟨2, _⟩ => ⟨S1280x1024, .f32⟩
  | .local _ .vmem, ⟨3, _⟩ => ⟨S1280x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x2048_S8192x1 : S4x2048.ShapeCasts S8192x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1280_d1_w32 : S1024x1280.Iotas .tc 32 [1]
  broadcasts_S1024x1_S1024x1280 : S1024x1.Broadcasts S1024x1280
  natLt_1_32 : 1 < 32
  bitsLt_bf16_f32 : FTy.bits .bf16 < FTy.bits .f32
  inb_S1280x1024_S1280x1024_0_0 : ∀ a, (![0, 0] : Fin 2 → Nat) a + S1280x1024.size a ≤ S1280x1024.size a
  h_S1280x1024 : 0 < S1280x1024.numel
  shapeCasts_S8192x1024_S4x2048x1024 : S8192x1024.ShapeCasts S4x2048x1024
  dot_S1024x1280_S1280x1024_S1024x1024_1_0_0_1_n_n_wf : DotDims.WF S1024x1280 S1280x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .i32 = 32 ∨ (Rect.block (s := S8192x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .f32 = 32 ∨ (Rect.block (s := S32000x1024) S1280x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)

variable [Facts₀]

def dot_S1024x1280_S1280x1024_S1024x1024_1_0_0_1_n_n : DotDims S1024x1280 S1280x1024 S1024x1024 where
  lhsContracting := [1]
  rhsContracting := [0]
  lhsNonContracting := [0]
  rhsNonContracting := [1]
  lhsBatch := []
  rhsBatch := []
  wf := dot_S1024x1280_S1280x1024_S1024x1024_1_0_0_1_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048 : Shape := ⟨2, ![4, 2048]⟩
abbrev S32000x1024 : Shape := ⟨2, ![32000, 1024]⟩
abbrev S4x2048x1 : Shape := ⟨3, ![4, 2048, 1]⟩
abbrev S1x1x32000 : Shape := ⟨3, ![1, 1, 32000]⟩
abbrev S4x2048x32000 : Shape := ⟨3, ![4, 2048, 32000]⟩
abbrev S4x2048x1024 : Shape := ⟨3, ![4, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S32000x1024, .f32⟩
  | .hbm, ⟨2, _⟩ => ⟨S4x2048x1, .i32⟩
  | .hbm, ⟨3, _⟩ => ⟨S1x1x32000, .i32⟩
  | .hbm, ⟨4, _⟩ => ⟨S4x2048x32000, .i32⟩
  | .hbm, ⟨5, _⟩ => ⟨S4x2048x32000, .i32⟩
  | .hbm, ⟨6, _⟩ => ⟨S4x2048x32000, .i1⟩
  | .hbm, ⟨7, _⟩ => ⟨S4x2048x32000, .f32⟩
  | .hbm, ⟨8, _⟩ => ⟨S4x2048x1024, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S4x2048_S4x2048x1_0_1 : S4x2048.BroadcastsInDim S4x2048x1 (![0, 1] : Fin 2 → Fin S4x2048x1.rank)
  bcast_S4x2048x1_S4x2048x32000_0_1_2 : S4x2048x1.BroadcastsInDim S4x2048x32000 (![0, 1, 2] : Fin 3 → Fin S4x2048x32000.rank)
  bcast_S1x1x32000_S4x2048x32000_0_1_2 : S1x1x32000.BroadcastsInDim S4x2048x32000 (![0, 1, 2] : Fin 3 → Fin S4x2048x32000.rank)
  dot_S4x2048x32000_S32000x1024_S4x2048x1024_2_0_01_1_n_n_wf : DotDims.WF S4x2048x32000 S32000x1024 S4x2048x1024 [2] [0] [0, 1] [1] [] []

variable [Facts₀]

def dot_S4x2048x32000_S32000x1024_S4x2048x1024_2_0_01_1_n_n : DotDims S4x2048x32000 S32000x1024 S4x2048x1024 where
  lhsContracting := [2]
  rhsContracting := [0]
  lhsNonContracting := [0, 1]
  rhsNonContracting := [1]
  lhsBatch := []
  rhsBatch := []
  wf := dot_S4x2048x32000_S32000x1024_S4x2048x1024_2_0_01_1_n_n_wf

class Facts : Prop extends Facts₀ where

variable [Facts]
-- ==== Proof.Pieces.lean ====
/-
  What one run of the kernel body leaves behind, case by case, as values.

  The body keeps a [1024, 1024] accumulator across the grid points of one token tile. At the first vocabulary
  tile it stores the zero block, reads it back and stores "zero block + this tile's product"; at every later
  tile it stores "what the accumulator held + this tile's product"; at the last tile it also copies the
  accumulator into the output block. Each of these is one store covering the whole buffer, so what the buffer
  holds afterwards is that store's value.
-/
import proofs.«164231_j22978075033999_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later tile that is not the last: the accumulator, holding `xs`, ends at `xs` + this tile's product. -/
theorem scratch_B (c : Dev nD) (i : grid0.Coords) (a2 : Memref sig .tc .vmem S1024x1 .i32) (h2 : a2.IsWhole)
    (a3 : Memref sig .tc .vmem S1280x1024 .f32) (h3 : a3.IsWhole) (a4 : Memref sig .tc .vmem S1024x1024 .f32) (h4 : a4.IsWhole)
    (a5 : Memref sig .tc .vmem S1024x1024 .f32) (h5 : a5.IsWhole) (hc0 : ¬cond0_0 i) (hc1 : ¬cond0_1 i)
    (x0 : Vec F S1024x1 .i32) (x1 : Vec F S1280x1024 .f32) (xs : Vec F S1024x1024 .f32) :
    sout0_B_0 c i a2 h2 a3 h3 a4 h4 a5 h5 hc0 hc1 x0 x1 xs = k0_pay2 i x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S1024x1) hz,
    View.ld_unit_zero (S := S1280x1024) hz, View.ld_unit_zero (S := S1024x1024) hz]

/-- The last tile: the accumulator ends the same way, -/
theorem scratch_C (c : Dev nD) (i : grid0.Coords) (a2 : Memref sig .tc .vmem S1024x1 .i32) (h2 : a2.IsWhole)
    (a3 : Memref sig .tc .vmem S1280x1024 .f32) (h3 : a3.IsWhole) (a4 : Memref sig .tc .vmem S1024x1024 .f32) (h4 : a4.IsWhole)
    (a5 : Memref sig .tc .vmem S1024x1024 .f32) (h5 : a5.IsWhole) (hc0 : ¬cond0_0 i) (hc1 : cond0_1 i)
    (x0 : Vec F S1024x1 .i32) (x1 : Vec F S1280x1024 .f32) (xs : Vec F S1024x1024 .f32) :
    sout0_C_0 c i a2 h2 a3 h3 a4 h4 a5 h5 hc0 hc1 x0 x1 xs = k0_pay2 i x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S1024x1) hz,
    View.ld_unit_zero (S := S1280x1024) hz, View.ld_unit_zero (S := S1024x1024) hz]

/-- and the output block is a copy of it. -/
theorem out_C (c : Dev nD) (i : grid0.Coords) (a2 : Memref sig .tc .vmem S1024x1 .i32) (h2 : a2.IsWhole)
    (a3 : Memref sig .tc .vmem S1280x1024 .f32) (h3 : a3.IsWhole) (a4 : Memref sig .tc .vmem S1024x1024 .f32) (h4 : a4.IsWhole)
    (a5 : Memref sig .tc .vmem S1024x1024 .f32) (h5 : a5.IsWhole) (hc0 : ¬cond0_0 i) (hc1 : cond0_1 i)
    (x0 : Vec F S1024x1 .i32) (x1 : Vec F S1280x1024 .f32) (xs : Vec F S1024x1024 .f32) :
    out0_C_2 c i a2 h2 a3 h3 a4 h4 a5 h5 hc0 hc1 x0 x1 xs = k0_pay2 i x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1024x1024) _ hz]
  simp only [View.readAt_eq_ld, h2.read_unread, h3.read_unread, h5.read_unread, View.ld_unit_zero (S := S1024x1) hz,
    View.ld_unit_zero (S := S1280x1024) hz, View.ld_unit_zero (S := S1024x1024) hz]

/-- The first tile: the accumulator is reset to the zero block and ends at zero block + this tile's product. -/
theorem scratch_A (c : Dev nD) (i : grid0.Coords) (a2 : Memref sig .tc .vmem S1024x1 .i32) (h2 : a2.IsWhole)
    (a3 : Memref sig .tc .vmem S1280x1024 .f32) (h3 : a3.IsWhole) (a4 : Memref sig .tc .vmem S1024x1024 .f32) (h4 : a4.IsWhole)
    (a5 : Memref sig .tc .vmem S1024x1024 .f32) (h5 : a5.IsWhole) (hc0 : cond0_0 i) (hc1 : ¬cond0_1 i)
    (x0 : Vec F S1024x1 .i32) (x1 : Vec F S1280x1024 .f32) :
    sout0_A_0 c i a2 h2 a3 h3 a4 h4 a5 h5 hc0 hc1 x0 x1 = k0_pay2 i x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) hz, View.readCov_unit_zero (S := S1024x1024) _ hz]
  simp only [View.readAt_eq_ld, h2.read_unread, h3.read_unread, h5.read_unread, View.ld_unit_zero (S := S1024x1) hz,
    View.ld_unit_zero (S := S1280x1024) hz, View.ld_unit_zero (S := S1024x1024) hz]

end Cert.KernelIdeal.Pieces

end
-- ==== Proof.Cases.lean ====
/-
  The accumulator and the output block after each grid point, in terms of the body's arithmetic.

  A grid point is a pair (token tile, vocabulary tile), vocabulary tiles innermost: point `t` works on vocabulary
  tile `t mod 25`. At a point with `t mod 25 = 0` the accumulator ends at "zero block + this tile's product"; at
  every other point at "what the point before left + this tile's product"; and at `t mod 25 = 24` the output block
  is that same value.
-/
import proofs.«164231_j22978075033999_1_alg».proof.Proof.Pieces

noncomputable section

open Idealize.ShloMosaic Idealize.ShloMosaic.TcCoe Idealize.SL.Sem

namespace Cert.KernelIdeal.Cases

open Cert.KernelIdeal Cert.KernelIdeal.Gen Cert.KernelIdeal.Pieces

variable {F : FTy → Type} [FloatOps F]
variable (m : (ℓ : Loc nD τ sig) → Buf (Elt F) ℓ)

/-- First vocabulary tile of a token tile: the accumulator restarts from the zero block. -/
theorem acc_first (c : Dev nD) (t : Fin cfg0.N) (h0 : t.val % 25 = 0) :
    (outsAt0 m c t.val t.isLt).2 = k0_pay2 (grid0.coords t) (iblk m c 0 t) (iblk m c 1 t) k0_pay1 := by
  have h1 : ¬t.val % 25 = 24 := by omega
  rw [outsAt0_A m c t h0 h1]
  dsimp only
  exact scratch_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- Any later vocabulary tile: the accumulator takes in this tile's product. -/
theorem acc_later (c : Dev nD) (t : Fin cfg0.N) (h0 : ¬t.val % 25 = 0) :
    (outsAt0 m c t.val t.isLt).2 = k0_pay2 (grid0.coords t) (iblk m c 0 t) (iblk m c 1 t)
      (outsAt0 m c (t.val - 1) (Nat.lt_of_le_of_lt (Nat.sub_le _ _) t.isLt)).2 := by
  by_cases h1 : t.val % 25 = 24
  · rw [outsAt0_C m c t h0 h1]
    dsimp only
    exact scratch_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact scratch_B c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- Last vocabulary tile: the output block is the accumulator's final value. -/
theorem out_last (c : Dev nD) (t : Fin cfg0.N) (h1 : t.val % 25 = 24) :
    (outsAt0 m c t.val t.isLt).1 = (outsAt0 m c t.val t.isLt).2 := by
  have h0 : ¬t.val % 25 = 0 := by omega
  rw [outsAt0_C m c t h0 h1]
  dsimp only
  exact (out_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (scratch_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).symm

end Cert.KernelIdeal.Cases

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.LibRunningTotal.lean ====
/-
  Running totals. A family `f` indexed by `Fin N` in a commutative additive monoid, added up one member at a
  time from the first: the total over the indices `≤ n` starts at `f 0`, takes in `f (n+1)` at step `n+1`, and
  at the last index is the sum of the whole family. This is what an accumulator that is reset at the first
  grid point and increased by one block's contribution at every point holds.
-/
import Mathlib.Algebra.BigOperators.Fin
import Mathlib.Data.Fintype.Basic

namespace RunningTotal

open Finset

variable {M : Type*} [AddCommMonoid M] {N : ℕ}

/-- The total of `f` over the indices `≤ n`. -/
def upTo (f : Fin N → M) (n : ℕ) : M := ∑ t ∈ (univ : Finset (Fin N)).filter (fun t => t.val ≤ n), f t

/-- At the first index the total is that member alone. -/
theorem upTo_zero (f : Fin N → M) (h : 0 < N) : upTo f 0 = f ⟨0, h⟩ := by
  unfold upTo
  have : (univ : Finset (Fin N)).filter (fun t => t.val ≤ 0) = {⟨0, h⟩} := by
    ext t
    simp only [mem_filter, mem_univ, true_and, mem_singleton, Nat.le_zero]
    exact ⟨fun e => Fin.ext e, fun e => by rw [e]⟩
  rw [this, sum_singleton]

/-- One step: the total over the indices `≤ n + 1` is the total over those `≤ n` plus the new member. -/
theorem upTo_succ (f : Fin N → M) (n : ℕ) (h : n + 1 < N) : upTo f (n + 1) = upTo f n + f ⟨n + 1, h⟩ := by
  unfold upTo
  have : (univ : Finset (Fin N)).filter (fun t => t.val ≤ n + 1)
      = insert ⟨n + 1, h⟩ ((univ : Finset (Fin N)).filter (fun t => t.val ≤ n)) := by
    ext t
    simp only [mem_filter, mem_univ, true_and, mem_insert]
    constructor
    · intro e
      rcases Nat.lt_or_ge t.val (n + 1) with e' | e'
      · exact Or.inr (Nat.lt_succ_iff.mp e')
      · exact Or.inl (Fin.ext (Nat.le_antisymm e e'))
    · rintro (e | e)
      · rw [e]
      · exact Nat.le_succ_of_le e
  rw [this, sum_insert, add_comm]
  simp only [mem_filter, mem_univ, true_and, not_le]
  exact Nat.lt_succ_self n

/-- At the last index the total is the sum of the whole family. -/
theorem upTo_last (f : Fin N → M) (n : ℕ) (h : N ≤ n + 1) : upTo f n = ∑ t, f t := by
  unfold upTo
  rw [filter_true_of_mem]
  intro t _
  exact Nat.lt_succ_iff.mp (lt_of_lt_of_le t.isLt h)

end RunningTotal
-- ==== Proof.OneHotSpec.lean ====
/-
  An embedding lookup written as a one-hot contraction. For a 32-bit token word `a` and a table `tbl` with
  32000 rows, entry `d` of the looked-up row is  Σ_v [a = v] · tbl(v, d),  where [a = v] is 1 when the word `a`
  is the number `v` and 0 otherwise (a word that is no row number selects nothing and the sum is 0).

  The vocabulary axis is cut into 25 tiles of 1280 rows. The contraction is the sum over the tiles of the
  contraction inside each tile, and an accumulator that starts at the first tile's part and takes in one tile's
  part per step holds the whole contraction after the last tile. Only commutativity and associativity of + on
  the extended reals are used: no entry has to be finite.
-/
import Idealize.ShloMosaic.PureOps.Ideal
import Idealize.ShloMosaic.Lib.ValueIdx
import proofs.«164231_j22978075033999_1_alg».proof.Proof.LibTileSum
import proofs.«164231_j22978075033999_1_alg».proof.Proof.LibRunningTotal

noncomputable section

namespace Cert.OneHotSpec

open Idealize.ShloMosaic Idealize.ShloMosaic.ValueIdx

/-- The table's shape: 32000 rows of 1024 entries. -/
abbrev Tbl : Shape := ⟨2, ![32000, 1024]⟩

/-- [a = v]: the comparison bit of the word `a` against the number `v`, as an extended real (0 or 1). -/
def hot (a : BitVec 32) (v : ℕ) : EReal := (((IntOp.cmpi .eq a (BitVec.ofNat 32 v)).toNat : ℝ) : EReal)

/-- One term of the contraction: [a = v] · tbl(v, d). -/
def term (a : BitVec 32) (tbl : Tbl.Idx → EReal) (d : Fin 1024) (v : Fin 32000) : EReal :=
  hot a v.val * tbl (ix2 v d)

/-- The looked-up entry: the contraction over the whole vocabulary. -/
def lookup (a : BitVec 32) (tbl : Tbl.Idx → EReal) (d : Fin 1024) : EReal := ∑ v : Fin 32000, term a tbl d v

theorem tiles : 25 * 1280 = 32000 := by norm_num

/-- Row `j` of vocabulary tile `k`. -/
abbrev row (k : Fin 25) (j : Fin 1280) : Fin 32000 := TileSum.idx tiles k j

/-- The part of the contraction inside vocabulary tile `k`. -/
def tilePart (a : BitVec 32) (tbl : Tbl.Idx → EReal) (d : Fin 1024) (k : Fin 25) : EReal :=
  ∑ j : Fin 1280, term a tbl d (row k j)

/-- The contraction is the sum of its 25 tile parts. -/
theorem lookup_eq_tiles (a : BitVec 32) (tbl : Tbl.Idx → EReal) (d : Fin 1024) :
    lookup a tbl d = ∑ k : Fin 25, tilePart a tbl d k :=
  TileSum.sum_axis tiles (term a tbl d)

/-- The accumulator after tile `k`: the tile parts up to `k`. -/
def upTo (a : BitVec 32) (tbl : Tbl.Idx → EReal) (d : Fin 1024) (k : ℕ) : EReal :=
  RunningTotal.upTo (tilePart a tbl d) k

theorem upTo_zero (a : BitVec 32) (tbl : Tbl.Idx → EReal) (d : Fin 1024) :
    upTo a tbl d 0 = tilePart a tbl d ⟨0, by norm_num⟩ :=
  RunningTotal.upTo_zero _ _

theorem upTo_succ (a : BitVec 32) (tbl : Tbl.Idx → EReal) (d : Fin 1024) (k : ℕ) (h : k + 1 < 25) :
    upTo a tbl d (k + 1) = upTo a tbl d k + tilePart a tbl d ⟨k + 1, h⟩ :=
  RunningTotal.upTo_succ _ k h

/-- After the last tile the accumulator holds the whole contraction. -/
theorem upTo_last (a : BitVec 32) (tbl : Tbl.Idx → EReal) (d : Fin 1024) :
    upTo a tbl d 24 = lookup a tbl d :=
  (RunningTotal.upTo_last _ 24 (by norm_num)).trans (lookup_eq_tiles a tbl d).symm

/-- The whole result: entry (b, s, d) is the looked-up entry `d` for token (b, s). -/
def embed (ids : (⟨2, ![4, 2048]⟩ : Shape).Idx → BitVec 32) (tbl : Tbl.Idx → EReal) :
    (⟨3, ![4, 2048, 1024]⟩ : Shape).Idx → EReal := fun i =>
  lookup (ids (ix2 ⟨(i 0).val, (i 0).isLt⟩ ⟨(i 1).val, (i 1).isLt⟩)) tbl ⟨(i 2).val, (i 2).isLt⟩

theorem embed_apply (ids : (⟨2, ![4, 2048]⟩ : Shape).Idx → BitVec 32) (tbl : Tbl.Idx → EReal)
    (b : Fin 4) (s : Fin 2048) (d : Fin 1024) : embed ids tbl (ix3 b s d) = lookup (ids (ix2 b s)) tbl d := rfl

end Cert.OneHotSpec

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.Payload.lean ====
/-
  The body's arithmetic at one entry, at the ideal values.

  For one token tile and one vocabulary tile `k` the body forms the [1024, 1280] matrix of comparison bits
  [ids(p) = k·1280 + j] (the lane number plus k·1280 as a 32-bit word, the bit widened and converted to a float:
  0 or 1), multiplies it with the [1280, 1024] table tile and adds the product to the accumulator. So entry
  (p, d) of what it stores is  acc(p, d) + Σ_j [ids(p) = k·1280 + j] · tile(j, d).  The roundings to bf16 on the way
  into the product are the identity at the ideal values. The reset block is zero everywhere.
-/
import proofs.«164231_j22978075033999_1_alg».proof.Proof.Gen.KernelIdeal.Skeleton
import proofs.«164231_j22978075033999_1_alg».proof.Proof.OneHotSpec
import proofs.«164231_j22978075033999_1_alg».proof.Proof.LibPlainMatmul
import proofs.«164231_j22978075033999_1_alg».proof.Proof.LibKeepdims
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.OneHotSpec

/-- The product's dimension numbers are those of an ordinary [1024, 1280] × [1280, 1024] product. -/
theorem dims_plain : dot_S1024x1280_S1280x1024_S1024x1024_1_0_0_1_n_n = DotDims.plain 1024 1280 1024 := rfl

/-- A comparison bit widened to 32 bits and read as a signed integer is the bit read as a number. -/
theorem bit_toInt (b : BitVec 1) : (((b.setWidth 32).toInt : ℝ) : EReal) = (((b.toNat : ℝ)) : EReal) := by
  have h : ∀ b : BitVec 1, (b.setWidth 32).toInt = (b.toNat : ℤ) := by decide
  rw [h b, Int.cast_natCast]

/-- Lane `j` of vocabulary tile `k` as a 32-bit word: the lane number plus k·1280. -/
theorem lane_word (k j : ℕ) : BitVec.ofNat 32 j + BitVec.ofNat 32 k * 1280#32 = BitVec.ofNat 32 (k * 1280 + j) := by
  rw [BitVec.ofNat_add, BitVec.ofNat_mul, BitVec.add_comm]

/-- The reset block is zero everywhere. -/
theorem pay1_apply (y : S1024x1024.Idx) : k0_pay1 (F := Ideal) y = 0 := by
  unfold k0_pay1
  rw [shapeCast_self]
  exact Ideal.ofBits_zero_f32

/-- Entry (p, d) of what the body stores into the accumulator: the accumulator's entry plus this vocabulary
    tile's part of the contraction, the tile's number being the second grid coordinate. -/
theorem pay2_apply (i : grid0.Coords) (x0 : Vec Ideal S1024x1 .i32) (x1 : Vec Ideal S1280x1024 .f32)
    (xs : Vec Ideal S1024x1024 .f32) (p d : Fin 1024) :
    k0_pay2 i x0 x1 xs (ix2 p d)
      = xs (ix2 p d) + ∑ j : Fin 1280, hot (x0 (ix2 p (0 : Fin 1))) ((i 1).val * 1280 + j.val) * x1 (ix2 j d) := by
  unfold k0_pay2
  rw [shapeCast_self, shapeCast_self]
  refine congrArg (xs (ix2 p d) + ·) ?_
  refine (matmul_plain_zero_apply 1024 1280 1024 none _ _ p d).trans ?_
  refine Finset.sum_congr rfl fun j _ => ?_
  refine congrArg₂ (· * ·) ?_ rfl
  show ((((IntOp.cmpi .eq (broadcastTo S1024x1280 x0 broadcasts_S1024x1_S1024x1280 (ix2 p j))
    (IntOp.addi (iota .tc S1024x1280 32 [1] iota_S1024x1280_d1_w32 (ix2 p j)) (BitVec.ofNat 32 (i 1).val * 1280#32))).setWidth 32).toInt : ℝ) : EReal) = _
  rw [bit_toInt, Cert.LibKeepdims.broadcastTo_a1_ab_apply x0 _ p j (0 : Fin 1), iota_single_apply]
  show (((IntOp.cmpi .eq (x0 (ix2 p 0)) (BitVec.ofNat 32 j.val + BitVec.ofNat 32 (i 1).val * 1280#32)).toNat : ℝ) : EReal) = _
  rw [lane_word]
  rfl

end Cert.KernelIdeal.Payload

end
-- ==== Proof.Blocks.lean ====
/-
  Which entries of the arrays a grid point's blocks hold.

  Point `t` of the 8 × 25 grid works on token tile `t / 25` and vocabulary tile `t mod 25`: its block of the token
  column holds rows (t / 25)·1024 + p, its block of the table rows (t mod 25)·1280 + j, and its output block rows
  (t / 25)·1024 + p. The token column the region finds is the [4, 2048] token array folded row-major to [8192, 1],
  the table is the argument itself.
-/
import proofs.«164231_j22978075033999_1_alg».proof.Proof.Gen.KernelIdeal.Frame
import proofs.«164231_j22978075033999_1_alg».proof.Proof.OneHotSpec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.OneHotSpec

variable {F : FTy → Type} [FloatOps F]
variable (m : (ℓ : Loc nD τ sig) → Buf (Elt F) ℓ)

/-- The block indices and the vocabulary-tile coordinate at every grid point, decided over the grid. -/
theorem idx_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0
    ∧ (grid0.coords t 1).val = t.val % 25 :=
  (by decide +kernel : ∀ t : Fin grid0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0
    ∧ (grid0.coords t 1).val = t.val % 25)

/-- Row `p` of the point's token block is row (t / 25)·1024 + p of the token column. -/
theorem ids_block (c : Dev nD) (t : Fin cfg0.N) (p : Fin 1024) (u : Fin 1) (r : Fin 8192)
    (hr : r.val = t.val / 25 * 1024 + p.val) :
    (iblk m c 0 t : Vec F S1024x1 .i32) (ix2 p u) = V m c main_v0 (ix2 r (0 : Fin 1)) := by
  obtain ⟨h00, h01, -⟩ := idx_facts t
  unfold iblk
  rw [View.read_apply]
  show V m c main_v0 (((cfg0.win 0).blk t).view.emb (ix2 p u)) = V m c main_v0 (ix2 r 0)
  refine congrArg (V m c main_v0) (funext fun a => Fin.ext ?_)
  match a with
  | ⟨0, _⟩ => show win0_0.index t 0 * 1024 + 1 * p.val = r.val; rw [h00, hr]; omega
  | ⟨1, _⟩ => show win0_0.index t 1 * 1 + 1 * u.val = 0; rw [h01]; omega

/-- Entry (j, d) of the point's table block is entry ((t mod 25)·1280 + j, d) of the table. -/
theorem tbl_block (c : Dev nD) (t : Fin cfg0.N) (j : Fin 1280) (d : Fin 1024) (k : Fin 25) (hk : k.val = t.val % 25) :
    (iblk m c 1 t : Vec F S1280x1024 .f32) (ix2 j d) = m ((c : Thread nD τ).loc main_arg1) (ix2 (row k j) d) := by
  obtain ⟨-, -, h10, h11, -⟩ := idx_facts t
  unfold iblk
  rw [View.read_apply]
  show V m c main_arg1 (((cfg0.win 1).blk t).view.emb (ix2 j d)) = _
  rw [V_main_arg1]
  refine congrArg (m ((c : Thread nD τ).loc main_arg1)) (funext fun a => Fin.ext ?_)
  match a with
  | ⟨0, _⟩ => show win0_1.index t 0 * 1280 + 1 * j.val = k.val * 1280 + j.val; rw [h10, hk]; omega
  | ⟨1, _⟩ => show win0_1.index t 1 * 1024 + 1 * d.val = d.val; rw [h11]; omega

/-- The token column the region finds is the token array folded to one column. -/
theorem V_ids (c : Dev nD) :
    (V m c main_v0 : S8192x1.Idx → BitVec 32)
      = shapeCast S8192x1 (m ((c : Thread nD τ).loc main_arg0)) shapeCasts_S4x2048_S8192x1 := by
  show StableHlo.after hostOps0 (fun b => m (c, b)) (Proc.devRef .tc main_v0) = _
  after_results
  rfl

/-- Row b·2048 + s of the token column is token (b, s). -/
theorem V_ids_apply (c : Dev nD) (b : Fin 4) (s : Fin 2048) (r : Fin 8192) (hr : r.val = b.val * 2048 + s.val) :
    V m c main_v0 (ix2 r (0 : Fin 1)) = m ((c : Thread nD τ).loc main_arg0) (ix2 b s) := by
  rw [V_ids]
  refine shapeCast_apply _ shapeCasts_S4x2048_S8192x1 _ _ ?_
  rw [Shape.rowMajor_val_two, Shape.rowMajor_val_two]
  show b.val * 2048 + s.val = r.val * 1 + 0
  omega

end Cert.KernelIdeal.Blocks

end
-- ==== Proof.Accumulate.lean ====
/-
  The accumulator is the running total of the tile parts.

  Fix a token tile and a row `p` of it, that is token row r = (token tile)·1024 + p, with token word `a`. After the
  point of vocabulary tile `k` the accumulator's entry (p, d) is the sum of the parts of the contraction
  Σ_v [a = v] · table(v, d) inside vocabulary tiles 0 … k: the first tile gives 0 + its part, every later tile adds
  its part to what the point before left. By induction on the grid point.
-/
import proofs.«164231_j22978075033999_1_alg».proof.Proof.Cases
import proofs.«164231_j22978075033999_1_alg».proof.Proof.Payload
import proofs.«164231_j22978075033999_1_alg».proof.Proof.Blocks
import proofs.«164231_j22978075033999_1_alg».proof.Proof.OneHotSpec

noncomputable section

open Idealize.ShloMosaic Idealize.ShloMosaic.TcCoe Idealize.SL.Sem Idealize.ShloMosaic.ValueIdx

namespace Cert.KernelIdeal.Accumulate

open Cert.KernelIdeal Cert.KernelIdeal.Gen Cert.OneHotSpec Cert.KernelIdeal.Cases Cert.KernelIdeal.Payload
  Cert.KernelIdeal.Blocks

variable (m : (ℓ : Loc nD τ sig) → Buf (Elt Ideal) ℓ)

/-- One point's store, entry by entry: the accumulator's entry plus the part of the contraction inside the point's
    vocabulary tile, for the token word of the entry's row. -/
theorem step_apply (c : Dev nD) (t : Fin cfg0.N) (xs : Vec Ideal S1024x1024 .f32) (p d : Fin 1024) (r : Fin 8192)
    (hr : r.val = t.val / 25 * 1024 + p.val) (k : Fin 25) (hk : k.val = t.val % 25) :
    k0_pay2 (grid0.coords t) (iblk m c 0 t) (iblk m c 1 t) xs (ix2 p d)
      = xs (ix2 p d) + tilePart (V m c main_v0 (ix2 r (0 : Fin 1))) (m ((c : Thread nD τ).loc main_arg1)) d k := by
  refine (pay2_apply (grid0.coords t) (iblk m c 0 t) (iblk m c 1 t) xs p d).trans ?_
  refine congrArg (xs (ix2 p d) + ·) ?_
  unfold tilePart
  refine Finset.sum_congr rfl fun j _ => ?_
  unfold term
  rw [ids_block m c t p 0 r hr, tbl_block m c t j d k hk, (idx_facts t).2.2.2.2.2.2, ← hk]
  rfl

/-- After grid point `n` the accumulator holds the tile parts up to vocabulary tile `n mod 25`. -/
theorem acc_eq (c : Dev nD) : ∀ (n : ℕ) (hn : n < cfg0.N) (p d : Fin 1024) (r : Fin 8192), r.val = n / 25 * 1024 + p.val →
    (outsAt0 m c n hn).2 (ix2 p d)
      = upTo (V m c main_v0 (ix2 r (0 : Fin 1))) (m ((c : Thread nD τ).loc main_arg1)) d (n % 25)
  | 0, hn, p, d, r, hr => by
    refine (congrFun (acc_first m c ⟨0, hn⟩ (Nat.zero_mod _)) (ix2 p d)).trans ?_
    refine (step_apply m c ⟨0, hn⟩ (k0_pay1 (F := Ideal)) p d r hr ⟨0, by norm_num⟩ (Nat.zero_mod _).symm).trans ?_
    rw [pay1_apply, zero_add, Nat.zero_mod, upTo_zero]
  | n + 1, hn, p, d, r, hr => by
    have hN : n + 1 < 200 := lt_of_lt_of_eq hn N_0
    by_cases h0 : (n + 1) % 25 = 0
    · refine (congrFun (acc_first m c ⟨n + 1, hn⟩ h0) (ix2 p d)).trans ?_
      refine (step_apply m c ⟨n + 1, hn⟩ (k0_pay1 (F := Ideal)) p d r hr ⟨0, by norm_num⟩ h0.symm).trans ?_
      rw [pay1_apply, zero_add, h0, upTo_zero]
    · have hk : (n + 1) % 25 = n % 25 + 1 := by omega
      have hlt : n % 25 + 1 < 25 := by omega
      have hr' : r.val = n / 25 * 1024 + p.val := by omega
      refine (congrFun (acc_later m c ⟨n + 1, hn⟩ h0) (ix2 p d)).trans ?_
      refine (step_apply m c ⟨n + 1, hn⟩ _ p d r hr ⟨n % 25 + 1, hlt⟩ hk.symm).trans ?_
      rw [hk, upTo_succ _ _ _ _ hlt]
      refine congrArg (· + _) ?_
      exact acc_eq c n (Nat.lt_of_succ_lt hn) p d r hr'

/-- At the last vocabulary tile of a token tile the output block holds the whole contraction. -/
theorem out_eq (c : Dev nD) (t : Fin cfg0.N) (h1 : t.val % 25 = 24) (p d : Fin 1024) (r : Fin 8192)
    (hr : r.val = t.val / 25 * 1024 + p.val) :
    (outsAt0 m c t.val t.isLt).1 (ix2 p d)
      = lookup (V m c main_v0 (ix2 r (0 : Fin 1))) (m ((c : Thread nD τ).loc main_arg1)) d := by
  rw [out_last m c t h1, acc_eq m c t.val t.isLt p d r hr, h1, upTo_last]

end Cert.KernelIdeal.Accumulate

end
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.Final.lean ====
/-
  The kernel's result array.

  Each token tile's output block is written back once, after its last vocabulary tile, and then holds the whole
  contraction for each of its rows; the eight blocks tile the [8192, 1024] array, so the array the region leaves has,
  in row r, the looked-up row of token word r. The host then unfolds [8192, 1024] to [4, 2048, 1024] row-major, and
  token word b·2048 + s of the folded column is token (b, s): the result is the lookup of every token.
-/
import proofs.«164231_j22978075033999_1_alg».proof.Proof.Accumulate
import proofs.«164231_j22978075033999_1_alg».proof.Proof.LibRank3

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.OneHotSpec Cert.KernelIdeal.Blocks Cert.KernelIdeal.Accumulate

variable (m : (ℓ : Loc nD τ sig) → Buf (Elt Ideal) ℓ) (ρ : Dev nD → PrngReg)

/-- The array the region leaves: row r holds the looked-up row of token word r of the folded token column. -/
def rows (c : Dev nD) : Buf (Elt Ideal) ((c : Thread nD τ).loc main_v1) := fun y =>
  lookup (V m c main_v0 (ix2 (⟨(y 0).val, (y 0).isLt⟩ : Fin 8192) (0 : Fin 1))) (m ((c : Thread nD τ).loc main_arg1))
    ⟨(y 1).val, (y 1).isLt⟩

/-- `rows` at an index whose coordinates are the numbers r and d. -/
theorem rows_apply (c : Dev nD) (i : S8192x1024.Idx) (r : Fin 8192) (d : Fin 1024) (h0 : (i 0).val = r.val)
    (h1 : (i 1).val = d.val) :
    rows m c i = lookup (V m c main_v0 (ix2 r (0 : Fin 1))) (m ((c : Thread nD τ).loc main_arg1)) d := by
  have e0 : (⟨(i 0).val, (i 0).isLt⟩ : Fin 8192) = r := Fin.ext h0
  have e1 : (⟨(i 1).val, (i 1).isLt⟩ : Fin 1024) = d := Fin.ext h1
  unfold rows
  rw [e0, e1]

/-- An entry of the output block at a token tile's last point is the array's entry where the block sits. -/
theorem out_entry (c : Dev nD) (t : Fin cfg0.N) (h1 : t.val % 25 = 24) (p d : Fin 1024) :
    (outsAt0 m c t.val t.isLt).1 (ix2 p d) = rows m c (((cfg0.win 2).blk t).view.emb (ix2 p d)) := by
  obtain ⟨-, -, -, -, h20, h21, -⟩ := idx_facts t
  have hN : t.val < 200 := lt_of_lt_of_eq t.isLt N_0
  have hr : t.val / 25 * 1024 + p.val < 8192 := by omega
  refine (out_eq m c t h1 p d ⟨t.val / 25 * 1024 + p.val, hr⟩ rfl).trans ?_
  refine (rows_apply m c _ ⟨t.val / 25 * 1024 + p.val, hr⟩ d ?_ ?_).symm
  · show win0_2.index t 0 * 1024 + 1 * p.val = t.val / 25 * 1024 + p.val
    rw [h20]; omega
  · show win0_2.index t 1 * 1024 + 1 * d.val = d.val
    rw [h21]; omega

/-- Reading an array through a point's output block reads the array where the block's entry sits. -/
theorem read_blk (c : Dev nD) (G : Buf (Elt Ideal) ((c : Thread nD τ).loc main_v1)) (t : Fin cfg0.N) (p d : Fin 1024) :
    ((cfg0.win 2).blk t).view.read (Elt Ideal) G (ix2 p d) = G (((cfg0.win 2).blk t).view.emb (ix2 p d)) := rfl

/-- What a token tile's last point writes back is its block of `rows`. -/
theorem flushed_eq (c : Dev nD) (t : Fin cfg0.N) (hf : (cfg0.win 2).flush t = true) :
    (dats m 0 c).flushed 2 t = ((cfg0.win 2).blk t).view.read (Elt Ideal) (rows m c) := by
  have h1 : t.val % 25 = 24 := (flush0_2 t).mp hf
  show (cfg0.win 2).cut (grid0.coords t) ((dats m 0 c).after 2 t) = _
  rw [after0_2]
  funext y
  obtain ⟨p, d, rfl⟩ : ∃ (p : Fin 1024) (d : Fin 1024), y = ix2 p d := ⟨y 0, y 1, eq_ix2 y⟩
  refine Eq.trans ?_ (read_blk c (rows m c) t p d).symm
  exact out_entry m c t h1 p d

/-- An index of the array is in point `t`'s block iff each coordinate is in the block's range on its axis. -/
theorem mem_blk (t : Fin cfg0.N) (i : S8192x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- Row r lies in the block written back at the last point of token tile r / 1024. -/
theorem cover (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 200 := N_0
  have ht : (i 0).val / 1024 * 25 + 24 < cfg0.N := by rw [hN]; omega
  refine ⟨⟨(i 0).val / 1024 * 25 + 24, ht⟩, (flush0_2 _).mpr (by show ((i 0).val / 1024 * 25 + 24) % 25 = 24; omega), ?_⟩
  obtain ⟨-, -, -, -, h20, h21, -⟩ := idx_facts ⟨(i 0).val / 1024 * 25 + 24, ht⟩
  rw [mem_blk]
  intro a
  match a with
  | ⟨0, _⟩ =>
    show win0_2.index _ 0 * 1024 ≤ (i 0).val ∧ (i 0).val < win0_2.index _ 0 * 1024 + 1024
    rw [h20]; show ((i 0).val / 1024 * 25 + 24) / 25 * 1024 ≤ (i 0).val ∧ (i 0).val < ((i 0).val / 1024 * 25 + 24) / 25 * 1024 + 1024
    omega
  | ⟨1, _⟩ =>
    show win0_2.index _ 1 * 1024 ≤ (i 1).val ∧ (i 1).val < win0_2.index _ 1 * 1024 + 1024
    rw [h21]; omega

/-- The array after the region. -/
theorem final (c : Dev nD) : (dats m 0 c).arrAt 2 cfg0.N = rows m c :=
  (dats m 0 c).arrAt_eq_of_cover 2 (rows m c) (flushed_eq m c) cover

/-- The host's unfolding of `rows` to [4, 2048, 1024] is the lookup of every token of the argument arrays. -/
theorem unfold_rows (c : Dev nD) :
    shapeCast S4x2048x1024 (rows m c) shapeCasts_S8192x1024_S4x2048x1024
      = embed (m ((c : Thread nD τ).loc main_arg0)) (m ((c : Thread nD τ).loc main_arg1)) := by
  funext i
  obtain ⟨b, s, d, rfl⟩ : ∃ (b : Fin 4) (s : Fin 2048) (d : Fin 1024), i = ix3 b s d := ⟨i 0, i 1, i 2, eq_ix3 i⟩
  rw [embed_apply]
  refine (Cert.LibRank3.cast_nc_abc 8192 (by norm_num) (rows m c) shapeCasts_S8192x1024_S4x2048x1024 b s d).trans ?_
  unfold rows
  exact congrArg (fun a => lookup a (m ((c : Thread nD τ).loc main_arg1)) d)
    (V_ids_apply m c b s (Cert.LibRank3.flat 8192 (by norm_num) b s) rfl)

/-- The program's result buffer after the run: the host's reshape applied to what the region left. -/
theorem tail_eq (c : Dev nD) :
    Pipeline.afterTail₀ cfgs (dats m) 0 (V0 m) [hostOps1] c main_v2
      = embed (m ((c : Thread nD τ).loc main_arg0)) (m ((c : Thread nD τ).loc main_arg1)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = rows m c :=
    (Pipeline.withArrays_arr spec0 launch0.win.arr_inj c _ _ 2).trans (final m c)
  refine Eq.trans ?_ (unfold_rows m c)
  exact congrArg (fun x => shapeCast S4x2048x1024 x shapeCasts_S8192x1024_S4x2048x1024) hw

/-- The kernel's run: every weakly fair execution ends with the result buffer at the lookup of every token and the
    argument arrays unchanged. -/
theorem run : θ_run defs (onTc (τ := τ) (main (F := Ideal))) ⟨m, fun _ => 0, ρ⟩ fun r => ∀ c : Dev nD,
      r.2.mem ((c.tc : Thread nD τ).loc main_v2)
        = embed (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Final

end
-- ==== Proof.RefSide.lean ====
/-
  The reference computes the same contraction.

  The reference builds the one-hot array [4, 2048, 32000] — entry (b, s, v) is the comparison bit of token (b, s)
  against the number v, converted to a float — and contracts its last axis with the table's rows. Read at an index
  that is  Σ_v [ids(b, s) = v] · table(v, d),  term for term the lookup of the specification.
-/
import proofs.«164231_j22978075033999_1_alg».proof.Proof.Gen.ReferenceIdeal.Read
import proofs.«164231_j22978075033999_1_alg».proof.Proof.OneHotSpec

noncomputable section

open Idealize.ShloMosaic Idealize.ShloMosaic.ValueIdx

namespace Cert.ReferenceIdeal.RefValue

open Cert.ReferenceIdeal Cert.ReferenceIdeal.Read Cert.OneHotSpec

/-- The token a one-hot entry compares is token (b, s) of the result index (b, s, d). -/
theorem tok_idx (i : S4x2048x1024.Idx) (k : Fin 32000) :
    idx_main_call0_v0 (idx_main_call0_v2 (lidx_main_v1 i k))
      = ix2 (⟨(i 0).val, (i 0).isLt⟩ : Fin 4) (⟨(i 1).val, (i 1).isLt⟩ : Fin 2048) :=
  funext fun a => Fin.ext (by match a with | ⟨0, _⟩ => rfl | ⟨1, _⟩ => rfl)

/-- The table entry a term reads is (v, d). -/
theorem tbl_idx (i : S4x2048x1024.Idx) (k : Fin 32000) :
    ridx_main_v1 i k = ix2 k (⟨(i 2).val, (i 2).isLt⟩ : Fin 1024) :=
  funext fun a => Fin.ext (by match a with | ⟨0, _⟩ => rfl | ⟨1, _⟩ => rfl)

/-- The reference's result is the lookup of every token. -/
theorem ref_eq (x0 : (⟨S4x2048, .i32⟩ : BufTy).Contents (Elt Ideal)) (x1 : (⟨S32000x1024, .f32⟩ : BufTy).Contents (Elt Ideal)) :
    val_main_v1 (F := Ideal) x0 x1 = embed x0 x1 := by
  funext i
  rw [val_main_v1_apply]
  unfold embed lookup
  refine Finset.sum_congr rfl fun k _ => ?_
  unfold term
  rw [val_main_v0_apply, val_main_call0_v4_apply, val_main_call0_v2_apply, val_main_call0_v0_apply,
    val_main_call0_v3_apply, val_main_call0_v1_apply, tok_idx, tbl_idx]
  rfl

end Cert.ReferenceIdeal.RefValue

end
-- ==== Proof.lean ====
/-
  An embedding lookup computed as a one-hot contraction, tile by tile, against the same contraction computed whole.

  Both programs compute, for every token (b, s) and every d,  Σ_v [ids(b, s) = v] · table(v, d)  over the 32000
  vocabulary rows. The kernel cuts the vocabulary into 25 tiles of 1280 rows and, for each tile of 1024 tokens,
  adds the tiles' parts of the sum into an accumulator one after the other, starting from zero; the reference forms
  the whole one-hot array and contracts it at once. On the extended reals a sum may be regrouped freely, so the two
  agree entry by entry whatever the table holds; no finiteness is used. The kernel's conversions to bf16 are the
  identity at the ideal values and nothing was rewritten by the idealization, so the preservation claim is trivial.
-/
import proofs.«164231_j22978075033999_1_alg».proof.Defs
import proofs.«164231_j22978075033999_1_alg».proof.Proof.Gen.Kernel
import proofs.«164231_j22978075033999_1_alg».proof.Proof.Gen.Kernel.Skeleton
import proofs.«164231_j22978075033999_1_alg».proof.Proof.Gen.Kernel.Launch
import proofs.«164231_j22978075033999_1_alg».proof.Proof.Gen.Kernel.Points
import proofs.«164231_j22978075033999_1_alg».proof.Proof.Gen.Kernel.Frame
import proofs.«164231_j22978075033999_1_alg».proof.Proof.Gen.KernelIdeal
import proofs.«164231_j22978075033999_1_alg».proof.Proof.Gen.KernelIdeal.Skeleton
import proofs.«164231_j22978075033999_1_alg».proof.Proof.Gen.KernelIdeal.Launch
import proofs.«164231_j22978075033999_1_alg».proof.Proof.Gen.KernelIdeal.Points
import proofs.«164231_j22978075033999_1_alg».proof.Proof.Gen.KernelIdeal.Frame
import proofs.«164231_j22978075033999_1_alg».proof.Proof.Gen.ReferenceIdeal
import proofs.«164231_j22978075033999_1_alg».proof.Proof.Gen.ReferenceIdeal.Run
import proofs.«164231_j22978075033999_1_alg».proof.Proof.Gen.ReferenceIdeal.Read
import proofs.«164231_j22978075033999_1_alg».proof.Proof.Gen.Pre_finite_inputs
import Idealize.ShloMosaic.Adequacy
import Idealize.ShloMosaic.Init

import proofs.«164231_j22978075033999_1_alg».proof.Proof.Final
import proofs.«164231_j22978075033999_1_alg».proof.Proof.RefSide

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the lookup of every token: the kernel's by the running total over vocabulary tiles, the
    reference's by reading its contraction at an index; the argument arrays agree. -/
theorem algebraic : Cert.algebraic_KernelIdeal_ReferenceIdeal := by
  intro m ρ m' ρ' _ hagree
  refine ⟨fun c => Cert.OneHotSpec.embed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
